-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S32768x1024 .f32) (main_arg1 : FVec F S512x512 .f32) (main_arg2 : FVec F S512 .f32) (main_arg3 : FVec F S512x1024 .f32) (main_arg4 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_v13 main_v16
-- ==== Kernel.lean ====
abbrev S32768x1024 : Shape := ⟨2, ![32768, 1024]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S32768 : Shape := ⟨1, ![32768]⟩
abbrev S512x512x2 : Shape := ⟨3, ![512, 512, 2]⟩
abbrev S512x512x1 : Shape := ⟨3, ![512, 512, 1]⟩
abbrev S1x512 : Shape := ⟨2, ![1, 512]⟩
abbrev S1x1024 : Shape := ⟨2, ![1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S512x512, .f32⟩
  | .hbm, ⟨2, _⟩ => ⟨S512, .f32⟩
  | .hbm, ⟨3, _⟩ => ⟨S512x1024, .f32⟩
  | .hbm, ⟨4, _⟩ => ⟨S1024, .f32⟩
  | .hbm, ⟨5, _⟩ => ⟨S512x512, .bf16⟩
  | .hbm, ⟨6, _⟩ => ⟨S512x1024, .bf16⟩
  | .hbm, ⟨7, _⟩ => ⟨S32768x1024, .f32⟩
  | .hbm, ⟨8, _⟩ => ⟨S32768, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512, .f32⟩
  | .local _ .vmem, ⟨4, _⟩ => ⟨S512x1024, .bf16⟩
  | .local _ .vmem, ⟨5, _⟩ => ⟨S1024, .f32⟩
  | .local _ .vmem, ⟨6, _⟩ => ⟨S512x1024, .f32⟩
  | .local _ .vmem, ⟨7, _⟩ => ⟨S512x1024, .f32⟩
  | .local _ .vmem, ⟨8, _⟩ => ⟨S512, .f32⟩
  | .local _ .vmem, ⟨9, _⟩ => ⟨S512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x512x2 : S512x1024.ShapeCasts S512x512x2
  slices_S512x512x2_o0_0_0_S512x512x1 : S512x512x2.Slices ![0, 0, 0] S512x512x1
  shapeCasts_S512x512x1_S512x512 : S512x512x1.ShapeCasts S512x512
  slices_S512x512x2_o0_0_1_S512x512x1 : S512x512x2.Slices ![0, 0, 1] S512x512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  slices_S512x1024_o0_0_S512x512 : S512x1024.Slices ![0, 0] S512x512
  slices_S512x1024_o0_512_S512x512 : S512x1024.Slices ![0, 512] S512x512
  reduces_S512x512_S512 : S512x512.Reduces [1] S512
  shapeCasts_S512x512_S512x512x1 : S512x512.ShapeCasts S512x512x1
  concatenates_S512x512x1_S512x512x1_S512x512x2_d2 : Shape.Concatenates [S512x512x1, S512x512x1] S512x512x2 2
  shapeCasts_S512x512x2_S512x1024 : S512x512x2.ShapeCasts S512x1024
  dot_S512x512_S512x512_S512x512_1_0_0_1_n_n_wf : DotDims.WF S512x512 S512x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S32768.size a
  hwx0_6 : ∀ i : grid0.Coords, EltTy.bits .f32 = 32 ∨ (Rect.block (s := S32768) S512.size (cc0_transform_6 i) (hinb0_6 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S_ : Shape := ⟨0, ![]⟩
abbrev S512x1 : Shape := ⟨2, ![512, 1]⟩
abbrev S32768x512 : Shape := ⟨2, ![32768, 512]⟩
abbrev S1x512 : Shape := ⟨2, ![1, 512]⟩
abbrev S1x1024 : Shape := ⟨2, ![1, 1024]⟩
abbrev S32768 : Shape := ⟨1, ![32768]⟩

abbrev nBuf : Space → Nat
  | .hbm => 89
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S512x512, .f32⟩
  | .hbm, ⟨2, _⟩ => ⟨S512, .f32⟩
  | .hbm, ⟨3, _⟩ => ⟨S512x1024, .f32⟩
  | .hbm, ⟨4, _⟩ => ⟨S1024, .f32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S32768x512, .f32⟩
  | .hbm, ⟨28, _⟩ => ⟨S_, .i32⟩
  | .hbm, ⟨29, _⟩ => ⟨S512, .i32⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S32768x512, .f32⟩
  | .hbm, ⟨37, _⟩ => ⟨S32768x512, .f32⟩
  | .hbm, ⟨38, _⟩ => ⟨S1x512, .f32⟩
  | .hbm, ⟨39, _⟩ => ⟨S32768x512, .f32⟩
  | .hbm, ⟨40, _⟩ => ⟨S32768x512, .f32⟩
  | .hbm, ⟨41, _⟩ => ⟨S_, .f32⟩
  | .hbm, ⟨42, _⟩ => ⟨S32768x512, .f32⟩
  | .hbm, ⟨43, _⟩ => ⟨S32768x512, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S_, .f32⟩
  | .hbm, ⟨56, _⟩ => ⟨S32768x512, .f32⟩
  | .hbm, ⟨57, _⟩ => ⟨S32768x512, .f32⟩
  | .hbm, ⟨58, _⟩ => ⟨S_, .f32⟩
  | .hbm, ⟨59, _⟩ => ⟨S32768x512, .f32⟩
  | .hbm, ⟨60, _⟩ => ⟨S32768x512, .f32⟩
  | .hbm, ⟨61, _⟩ => ⟨S_, .f32⟩
  | .hbm, ⟨62, _⟩ => ⟨S32768x512, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x512, .f32⟩
  | .hbm, ⟨67, _⟩ => ⟨S_, .f32⟩
  | .hbm, ⟨68, _⟩ => ⟨S32768, .f32⟩
  | .hbm, ⟨69, _⟩ => ⟨S_, .f32⟩
  | .hbm, ⟨70, _⟩ => ⟨S32768x1024, .f32⟩
  | .hbm, ⟨71, _⟩ => ⟨S_, .i32⟩
  | .hbm, ⟨72, _⟩ => ⟨S512, .i32⟩
  | .hbm, ⟨73, _⟩ => ⟨S512, .i1⟩
  | .hbm, ⟨74, _⟩ => ⟨S_, .i32⟩
  | .hbm, ⟨75, _⟩ => ⟨S512, .i32⟩
  | .hbm, ⟨76, _⟩ => ⟨S512, .i32⟩
  | .hbm, ⟨77, _⟩ => ⟨S512, .i32⟩
  | .hbm, ⟨78, _⟩ => ⟨S512x1, .i32⟩
  | .hbm, ⟨79, _⟩ => ⟨S32768x1024, .f32⟩
  | .hbm, ⟨80, _⟩ => ⟨S_, .i32⟩
  | .hbm, ⟨81, _⟩ => ⟨S512, .i32⟩
  | .hbm, ⟨82, _⟩ => ⟨S512, .i1⟩
  | .hbm, ⟨83, _⟩ => ⟨S_, .i32⟩
  | .hbm, ⟨84, _⟩ => ⟨S512, .i32⟩
  | .hbm, ⟨85, _⟩ => ⟨S512, .i32⟩
  | .hbm, ⟨86, _⟩ => ⟨S512, .i32⟩
  | .hbm, ⟨87, _⟩ => ⟨S512x1, .i32⟩
  | .hbm, ⟨88, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_c_12 : Ref sig .tc := ⟨.hbm, 71, rfl⟩
abbrev main_v50 : Ref sig .tc := ⟨.hbm, 72, rfl⟩
abbrev main_v51 : Ref sig .tc := ⟨.hbm, 73, rfl⟩
abbrev main_c_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_c_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S32768x1024_S32768x512_0_0 : S32768x1024.Slices ![0, 0] S32768x512
  slices_S32768x1024_S32768x512_0_512 : S32768x1024.Slices ![0, 512] S32768x512
  reducesTo_S32768x512_S32768_d1 : S32768x512.ReducesTo [1] S32768
  h_S_ : 0 < S_.numel
  bcast_S_S32768x1024 : S_.BroadcastsInDim S32768x1024 (![] : Fin 0 → Fin S32768x1024.rank)
  gather_S32768x1024_S512x1_S32768x512_0_1_n_n_1_1_327681_wf : GatherDims.WF S32768x1024 S512x1 S32768x512 [0] [1] [] [1] [] 1 ![32768, 1]
  dot_S32768x512_S512x512_S32768x512_1_0_0_1_n_n_wf : DotDims.WF S32768x512 S512x512 S32768x512 [1] [0] [0] [1] [] []
  dot_S32768x512_S512x1024_S32768x1024_1_0_0_1_n_n_wf : DotDims.WF S32768x512 S512x1024 S32768x1024 [1] [0] [0] [1] [] []
  scatter_S32768x1024_S512x1_S32768x512_0_1_1_1_wf : ScatterDims.WF S32768x1024 S512x1 S32768x512 [0] [1] [1] 1

variable [Facts₀]

def gather_S32768x1024_S512x1_S32768x512_0_1_n_n_1_1_327681 : GatherDims S32768x1024 S512x1 S32768x512 where
  offsetDims := [0]
  collapsedSliceDims := [1]
  operandBatchingDims := []
  startIndicesBatchingDims := []
  startIndexMap := [1]
  indexVectorDim := 1
  sliceSizes := ![32768, 1]
  wf := gather_S32768x1024_S512x1_S32768x512_0_1_n_n_1_1_327681_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def scatter_S32768x1024_S512x1_S32768x512_0_1_1_1 : ScatterDims S32768x1024 S512x1 S32768x512 where
  updateWindowDims := [0]
  insertedWindowDims := [1]
  scatterDimsToOperandDims := [1]
  indexVectorDim := 1
  wf := scatter_S32768x1024_S512x1_S32768x512_0_1_1_1_wf

class Facts : Prop extends Facts₀ where

variable [Facts]
-- ==== Proof.LibScatterColumns.lean ====
/-
  A column gather and a column scatter read at an index.

  Both operations take a matrix with `R` rows and `N` columns and a list of `C` column numbers (an integer array
  of shape `[C, 1]`, read as signed words).

  * The gather builds the `R × C` matrix whose column `k` is the operand's column number `k` of the list,
    the number clamped into `[0, N − 1]`.
  * The scatter (with the body that returns the update) starts from the operand and, for every entry `(r, k)`
    of an `R × C` matrix of updates in row-major order, replaces the operand's entry `(r, c)`, `c` the list's
    number `k`, when `0 ≤ c < N`, and drops the update otherwise.

  Read at an entry `(r, c)` the scatter's result is therefore the update `(r, k)` when exactly one `k` of the list
  names column `c`, and the operand's entry when none does.  The first part of the file proves this for any left fold of
  such replacements; the second identifies the two operations' index arithmetic for these dimension numbers.
-/
import Idealize.ShloMosaic.PureOps.Ideal
import Idealize.ShloMosaic.Lib.ValueIdx

noncomputable section

namespace ColumnIndexing

open Idealize.ShloMosaic Idealize.ShloMosaic.ValueIdx

/-! ## A left fold of replacements, read at one index

`step r n` replaces the entry at the index `g n` names (if any) by `v n` and leaves every other entry alone. -/

section Fold
variable {ι κ α : Type} {step : (ι → α) → κ → ι → α} {g : κ → Option ι} {v : κ → α}

/-- Once the entry at `i'` holds `a`, and every later replacement that lands on `i'` writes `a` again, it holds `a`
    at the end. -/
theorem foldl_keep (hhit : ∀ r n i', g n = some i' → step r n i' = v n)
    (hmiss : ∀ r n i', g n ≠ some i' → step r n i' = r i') (i' : ι) (a : α) :
    ∀ (l : List κ) (x : ι → α), (∀ n ∈ l, g n = some i' → v n = a) → x i' = a → l.foldl step x i' = a
  | [], _, _, hx => hx
  | n :: l, x, h, hx => by
      rw [List.foldl_cons]
      refine foldl_keep hhit hmiss i' a l (step x n) (fun n' hn' => h n' (List.mem_cons.mpr (Or.inr hn'))) ?_
      by_cases hn : g n = some i'
      · rw [hhit x n i' hn]; exact h n (List.mem_cons.mpr (Or.inl rfl)) hn
      · rw [hmiss x n i' hn]; exact hx

/-- If some replacement lands on `i'` and all that do write `a`, the entry at `i'` ends as `a`. -/
theorem foldl_hit (hhit : ∀ r n i', g n = some i' → step r n i' = v n)
    (hmiss : ∀ r n i', g n ≠ some i' → step r n i' = r i') (i' : ι) (a : α) :
    ∀ (l : List κ) (x : ι → α), (∀ n ∈ l, g n = some i' → v n = a) → (∃ n ∈ l, g n = some i') →
      l.foldl step x i' = a
  | [], _, _, ⟨_, hn, _⟩ => nomatch hn
  | n :: l, x, h, ⟨n0, hn0, hg0⟩ => by
      rw [List.foldl_cons]
      have h' : ∀ n' ∈ l, g n' = some i' → v n' = a := fun n' hn' => h n' (List.mem_cons.mpr (Or.inr hn'))
      by_cases hn : g n = some i'
      · exact foldl_keep hhit hmiss i' a l _ h'
          (by rw [hhit x n i' hn]; exact h n (List.mem_cons.mpr (Or.inl rfl)) hn)
      · rcases List.mem_cons.mp hn0 with rfl | hmem
        · exact absurd hg0 hn
        · exact foldl_hit hhit hmiss i' a l _ h' ⟨n0, hmem, hg0⟩

/-- If no replacement lands on `i'`, the entry at `i'` is the initial one. -/
theorem foldl_miss (hmiss : ∀ r n i', g n ≠ some i' → step r n i' = r i') (i' : ι) :
    ∀ (l : List κ) (x : ι → α), (∀ n ∈ l, g n ≠ some i') → l.foldl step x i' = x i'
  | [], _, _ => rfl
  | n :: l, x, h => by
      rw [List.foldl_cons, foldl_miss hmiss i' l (step x n) (fun n' hn' => h n' (List.mem_cons.mpr (Or.inr hn')))]
      exact hmiss x n i' (h n (List.mem_cons.mpr (Or.inl rfl)))

end Fold

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

/-- Axis 0 is not in the one-element list of axis 1. -/
theorem zero_not_mem_one : (0 : Fin 2) ∉ ([1] : List (Fin 2)) := by decide
/-- Of a rank-2 shape's axes, the ones other than axis 1 contain axis 0 … -/
theorem zero_mem_kept_one : (0 : Fin 2) ∈ (List.finRange 2).filter (fun a => decide (a ∉ ([1] : List (Fin 2)))) := by decide
/-- … and do not contain axis 1. -/
theorem one_not_mem_kept_one : (1 : Fin 2) ∉ (List.finRange 2).filter (fun a => decide (a ∉ ([1] : List (Fin 2)))) := by decide

/-- Entry `k` of a `[C, 1]` list of column numbers. -/
abbrev colIdx {C : Nat} (k : Fin C) : (⟨2, ![C, 1]⟩ : Shape).Idx := ix2 k ⟨0, Nat.one_pos⟩

/-! ## The column scatter -/

section Scatter
variable {α : Type} {R N C w : Nat}
  (wf : ScatterDims.WF ⟨2, ![R, N]⟩ ⟨2, ![C, 1]⟩ ⟨2, ![R, C]⟩ [0] [1] [1] 1)

/-- The dimension numbers of `operand.at[:, cols].set(updates)`: update axis 0 is the window over the operand's rows,
    the operand's column axis is the scattered one, each index vector one column number. -/
abbrev colScatterDims (R N C : Nat)
    (wf : ScatterDims.WF ⟨2, ![R, N]⟩ ⟨2, ![C, 1]⟩ ⟨2, ![R, C]⟩ [0] [1] [1] 1) :
    ScatterDims ⟨2, ![R, N]⟩ ⟨2, ![C, 1]⟩ ⟨2, ![R, C]⟩ where
  updateWindowDims := [0]
  insertedWindowDims := [1]
  scatterDimsToOperandDims := [1]
  indexVectorDim := 1
  wf := wf

theorem scatter_start_row (idx : IVec ⟨2, ![C, 1]⟩ w) (r : Fin R) (k : Fin C) :
    (colScatterDims R N C wf).start (ix2 r k) idx 0 = 0 := by
  unfold ScatterDims.start
  rw [dif_neg zero_not_mem_one]

theorem scatter_start_col (idx : IVec ⟨2, ![C, 1]⟩ w) (r : Fin R) (k : Fin C) :
    (colScatterDims R N C wf).start (ix2 r k) idx 1 = (idx (colIdx k)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem scatter_window_row (r : Fin R) (k : Fin C) :
    (colScatterDims R N C wf).window (ix2 r k) 0 = r.val := by
  unfold ScatterDims.window
  rw [dif_pos (show 0 ∈ (colScatterDims R N C wf).sKept from zero_mem_kept_one)]
  rfl

theorem scatter_window_col (r : Fin R) (k : Fin C) :
    (colScatterDims R N C wf).window (ix2 r k) 1 = 0 := by
  unfold ScatterDims.window
  rw [dif_neg (show 1 ∉ (colScatterDims R N C wf).sKept from one_not_mem_kept_one)]

/-- WHERE AN UPDATE LANDS: update `(r, k)` lands on `(r', c)` exactly when `r' = r` and the list's number `k`,
    read signed, is `c`. -/
theorem scatter_lands_iff (idx : IVec ⟨2, ![C, 1]⟩ w) (r r' : Fin R) (k : Fin C) (c : Fin N) :
    (colScatterDims R N C wf).resultIdx? (ix2 r k) idx = some (ix2 r' c)
      ↔ r' = r ∧ (idx (colIdx k)).toInt = (c.val : Int) := by
  have e0 : (colScatterDims R N C wf).start (ix2 r k) idx 0 + ((colScatterDims R N C wf).window (ix2 r k) 0 : Nat)
      = (r.val : Int) := by
    rw [scatter_start_row, scatter_window_row]; omega
  have e1 : (colScatterDims R N C wf).start (ix2 r k) idx 1 + ((colScatterDims R N C wf).window (ix2 r k) 1 : Nat)
      = (idx (colIdx k)).toInt := by
    rw [scatter_start_col, scatter_window_col]; omega
  have hr : r.val < R := r.isLt
  have hc : c.val < N := c.isLt
  unfold ScatterDims.resultIdx?
  split
  · rename_i h
    have h1 := h 1
    rw [e1] at h1
    constructor
    · intro hEq
      have hEq' := Option.some.inj hEq
      have h0v : ((colScatterDims R N C wf).start (ix2 r k) idx 0
          + ((colScatterDims R N C wf).window (ix2 r k) 0 : Nat)).toNat = r'.val := congrArg (fun i => (i 0).val) hEq'
      have h1v : ((colScatterDims R N C wf).start (ix2 r k) idx 1
          + ((colScatterDims R N C wf).window (ix2 r k) 1 : Nat)).toNat = c.val := congrArg (fun i => (i 1).val) hEq'
      rw [e0] at h0v
      rw [e1] at h1v
      exact ⟨Fin.ext (by omega), by omega⟩
    · rintro ⟨rfl, hz⟩
      refine congrArg some (funext fun a => Fin.ext ?_)
      rcases axis_two a with rfl | rfl
      · show ((colScatterDims R N C wf).start (ix2 r' k) idx 0
          + ((colScatterDims R N C wf).window (ix2 r' k) 0 : Nat)).toNat = r'.val
        rw [e0]; omega
      · show ((colScatterDims R N C wf).start (ix2 r' k) idx 1
          + ((colScatterDims R N C wf).window (ix2 r' k) 1 : Nat)).toNat = c.val
        rw [e1]; omega
  · rename_i h
    constructor
    · intro hEq; exact nomatch hEq
    · rintro ⟨rfl, hz⟩
      refine absurd (fun a => ?_) h
      rcases axis_two a with rfl | rfl
      · rw [e0]
        exact ⟨by omega, by show (r'.val : Int) < ((R : Nat) : Int); omega⟩
      · rw [e1]
        exact ⟨by omega, by show (idx (colIdx k)).toInt < ((N : Nat) : Int); omega⟩

/-- THE SCATTER READ WHERE A COLUMN IS NAMED: if the list's number `k` is `c` and no other entry of the list is, the
    result's entry `(r, c)` is the update's entry `(r, k)`. -/
theorem scatter_set_cols_hit (x : (⟨2, ![R, N]⟩ : Shape).Idx → α) (idx : IVec ⟨2, ![C, 1]⟩ w)
    (upd : (⟨2, ![R, C]⟩ : Shape).Idx → α) (r : Fin R) (c : Fin N) (k : Fin C)
    (hk : (idx (colIdx k)).toInt = (c.val : Int))
    (huniq : ∀ k' : Fin C, (idx (colIdx k')).toInt = (c.val : Int) → k' = k) :
    Host.scatter (colScatterDims R N C wf) (fun _ b => b) x idx upd (ix2 r c) = upd (ix2 r k) := by
  unfold Host.scatter
  refine foldl_hit (g := fun n => (colScatterDims R N C wf).resultIdx? ((⟨2, ![R, C]⟩ : Shape).rowMajor.symm n) idx)
    (v := fun n => upd ((⟨2, ![R, C]⟩ : Shape).rowMajor.symm n)) ?_ ?_ (ix2 r c) (upd (ix2 r k)) _ x ?_ ?_
  · intro f n i' hn
    dsimp only at hn ⊢
    rw [hn]
    exact if_pos rfl
  · intro f n i' hn
    dsimp only at hn ⊢
    generalize hres : (colScatterDims R N C wf).resultIdx? ((⟨2, ![R, C]⟩ : Shape).rowMajor.symm n) idx = o at hn ⊢
    cases o with
    | none => rfl
    | some i => exact if_neg fun h => hn (congrArg some h.symm)
  · intro n _ hn
    generalize (⟨2, ![R, C]⟩ : Shape).rowMajor.symm n = j at hn ⊢
    obtain ⟨r', k', rfl⟩ : ∃ (r' : Fin R) (k' : Fin C), j = ix2 r' k' := ⟨j 0, j 1, eq_ix2 j⟩
    obtain ⟨rfl, hz⟩ := (scatter_lands_iff wf idx r' r k' c).mp hn
    rw [huniq k' hz]
  · refine ⟨(⟨2, ![R, C]⟩ : Shape).rowMajor (ix2 r k), List.mem_finRange _, ?_⟩
    show (colScatterDims R N C wf).resultIdx? ((⟨2, ![R, C]⟩ : Shape).rowMajor.symm ((⟨2, ![R, C]⟩ : Shape).rowMajor (ix2 r k))) idx = _
    rw [Equiv.symm_apply_apply]
    exact (scatter_lands_iff wf idx r r k c).mpr ⟨rfl, hk⟩

/-- THE SCATTER READ WHERE NO COLUMN IS NAMED: if no entry of the list is `c`, the result's entry `(r, c)` is the
    operand's. -/
theorem scatter_set_cols_miss (x : (⟨2, ![R, N]⟩ : Shape).Idx → α) (idx : IVec ⟨2, ![C, 1]⟩ w)
    (upd : (⟨2, ![R, C]⟩ : Shape).Idx → α) (r : Fin R) (c : Fin N)
    (hnone : ∀ k' : Fin C, (idx (colIdx k')).toInt ≠ (c.val : Int)) :
    Host.scatter (colScatterDims R N C wf) (fun _ b => b) x idx upd (ix2 r c) = x (ix2 r c) := by
  unfold Host.scatter
  refine foldl_miss (g := fun n => (colScatterDims R N C wf).resultIdx? ((⟨2, ![R, C]⟩ : Shape).rowMajor.symm n) idx)
    ?_ (ix2 r c) _ x ?_
  · intro f n i' hn
    dsimp only at hn ⊢
    generalize hres : (colScatterDims R N C wf).resultIdx? ((⟨2, ![R, C]⟩ : Shape).rowMajor.symm n) idx = o at hn ⊢
    cases o with
    | none => rfl
    | some i => exact if_neg fun h => hn (congrArg some h.symm)
  · intro n _ hn
    generalize (⟨2, ![R, C]⟩ : Shape).rowMajor.symm n = j at hn
    obtain ⟨r', k', rfl⟩ : ∃ (r' : Fin R) (k' : Fin C), j = ix2 r' k' := ⟨j 0, j 1, eq_ix2 j⟩
    exact hnone k' ((scatter_lands_iff wf idx r' r k' c).mp hn).2

end Scatter

/-! ## The column gather -/

section Gather
variable {α : Type} {R N C w : Nat}
  (wf : GatherDims.WF ⟨2, ![R, N]⟩ ⟨2, ![C, 1]⟩ ⟨2, ![R, C]⟩ [0] [1] [] [1] [] 1 ![R, 1])

/-- The dimension numbers of `operand[:, cols]`: whole columns (slice sizes `[R, 1]`), the column axis collapsed,
    each index vector one column number. -/
abbrev colGatherDims (R N C : Nat)
    (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- THE GATHER READ AT `(r, k)`: the operand's entry in row `r` and the column the list's number `k` names, read
    signed and clamped into `[0, N − 1]`. -/
theorem gather_cols_apply (hN : 0 < N) (x : (⟨2, ![R, N]⟩ : Shape).Idx → α) (idx : IVec ⟨2, ![C, 1]⟩ w)
    (r : Fin R) (k : Fin C) :
    Host.gather (colGatherDims R N C wf) x idx (ix2 r k)
      = x (ix2 r ⟨min (idx (colIdx k)).toInt.toNat (N - 1), by omega⟩) := by
  unfold Host.gather
  refine congrArg x (funext fun a => Fin.ext ?_)
  rcases axis_two a with rfl | rfl
  · show (colGatherDims R N C wf).start (ix2 r k) idx 0 + (colGatherDims R N C wf).batchCoord (ix2 r k) 0
      + (colGatherDims R N C wf).offCoord (ix2 r k) 0 = r.val
    rw [GatherDims.batchCoord_eq_zero _ _ _ List.not_mem_nil]
    unfold GatherDims.start GatherDims.offCoord
    rw [dif_neg (show 0 ∉ (colGatherDims R N C wf).startIndexMap from zero_not_mem_one),
      dif_pos (show 0 ∈ (colGatherDims R N C wf).sKept from zero_mem_kept_one)]
    show 0 + 0 + r.val = r.val
    omega
  · show (colGatherDims R N C wf).start (ix2 r k) idx 1 + (colGatherDims R N C wf).batchCoord (ix2 r k) 1
      + (colGatherDims R N C wf).offCoord (ix2 r k) 1 = min (idx (colIdx k)).toInt.toNat (N - 1)
    rw [GatherDims.batchCoord_eq_zero _ _ _ List.not_mem_nil]
    unfold GatherDims.start GatherDims.offCoord
    rw [dif_pos (show 1 ∈ (colGatherDims R N C wf).startIndexMap from List.mem_singleton.mpr rfl),
      dif_neg (show 1 ∉ (colGatherDims R N C wf).sKept from one_not_mem_kept_one)]
    have hsi : (colGatherDims R N C wf).siIdx (ix2 r k) ⟨List.idxOf (1 : Fin 2) (colGatherDims R N C wf).startIndexMap,
        List.idxOf_lt_length_iff.2 (List.mem_singleton.mpr rfl)⟩ = colIdx k := by
      funext b; refine Fin.ext ?_
      match b with
      | ⟨0, _⟩ => rfl
      | ⟨1, _⟩ => rfl
    rw [hsi]
    show min (idx (colIdx k)).toInt.toNat (N - 1) + 0 + 0 = _
    omega

end Gather

end ColumnIndexing

end
-- ==== Proof.CouplingSpec.lean ====
/-
  The affine coupling layer with an alternating mask, row by row, on the extended reals.

  A row `xr` of 1024 numbers is split into its even-numbered entries (the identity half, passed through) and its
  odd-numbered entries (the transformed half). The identity half goes through a two-layer network,
      hidden  j = max (∑ k, xr (2k) · W1 k j + b1 j) 0,
      params  n = ∑ j, hidden j · W2 j n + b2 n,
  whose first 512 outputs give a positive scale and whose last 512 a shift:
      scale   k = logistic (params k + 2) + floor,          floor the f32 literal written 1e-3,
      shifted k = xr (2k+1) · scale k + params (512 + k).
  The layer's output row interleaves the two halves again, `out (2k) = xr (2k)` and `out (2k+1) = shifted k`, and its
  log-determinant is `∑ k, log (scale k)`.

  Everything is stated once for a single row; an array with `B` rows applies it to each row. With `B = 32768` that is
  the whole computation, with `B = 512` one block of it: a block's rows are rows of the array, so no algebraic law
  is needed to pass from blocks to the array.
-/
import Idealize.ShloMosaic.PureOps.Ideal
import Idealize.ShloMosaic.Lib.ValueIdx

noncomputable section

namespace Coupling

open Idealize.ShloMosaic Idealize.ShloMosaic.ValueIdx
open scoped BigOperators

/-- An `a × b` array of extended reals, indexed as the programs index it. -/
abbrev Mat (a b : Nat) : Type := (⟨2, ![a, b]⟩ : Shape).Idx → EReal
/-- A length-`a` array of extended reals. -/
abbrev Arr (a : Nat) : Type := (⟨1, ![a]⟩ : Shape).Idx → EReal

/-- Column `2k`: entry `k` of the identity half. -/
def evenCol (k : Fin 512) : Fin 1024 := ⟨2 * k.val, by omega⟩
/-- Column `2k + 1`: entry `k` of the transformed half. -/
def oddCol (k : Fin 512) : Fin 1024 := ⟨2 * k.val + 1, by omega⟩
/-- Column `k` of the network's output: the unconstrained scale for entry `k`. -/
def loCol (k : Fin 512) : Fin 1024 := ⟨k.val, by omega⟩
/-- Column `512 + k` of the network's output: the shift for entry `k`. -/
def hiCol (k : Fin 512) : Fin 1024 := ⟨512 + k.val, by omega⟩
/-- The entry of either half that column `c` belongs to. -/
def halfCol (c : Fin 1024) : Fin 512 := ⟨c.val / 2, by omega⟩

/-- The literal `2.0`, as both programs write it. -/
def two : EReal := Ideal.ofBits .f32 0x40000000#32
/-- The scale's floor, the f32 literal both programs write for `1e-3`. -/
def scaleFloor : EReal := Ideal.ofBits .f32 0x3A83126F#32
/-- The literal `0.0` the rectifier compares with. -/
def zero : EReal := Ideal.ofBits .f32 0x00000000#32

section Row
variable (W1 : Mat 512 512) (b1 : Arr 512) (W2 : Mat 512 1024) (b2 : Arr 1024) (xr : Fin 1024 → EReal)

/-- The hidden layer: the rectified affine image of the row's identity half. -/
def hidden (j : Fin 512) : EReal :=
  max (∑ k : Fin 512, xr (evenCol k) * W1 (ix2 k j) + b1 (ix1 j)) zero

/-- The network's output: an affine image of the hidden layer. -/
def params (n : Fin 1024) : EReal :=
  ∑ j : Fin 512, hidden W1 b1 xr j * W2 (ix2 j n) + b2 (ix1 n)

/-- The scale of entry `k`. -/
def scale (k : Fin 512) : EReal :=
  Ideal.logistic (params W1 b1 W2 b2 xr (loCol k) + two) + scaleFloor

/-- Entry `k` of the transformed half after the coupling. -/
def shifted (k : Fin 512) : EReal :=
  xr (oddCol k) * scale W1 b1 W2 b2 xr k + params W1 b1 W2 b2 xr (hiCol k)

/-- The output row: even columns unchanged, odd columns coupled. -/
def outRow (c : Fin 1024) : EReal :=
  if c.val % 2 = 0 then xr c else shifted W1 b1 W2 b2 xr (halfCol c)

/-- The row's log-determinant. -/
def ladRow : EReal :=
  ∑ k : Fin 512, Ideal.log (scale W1 b1 W2 b2 xr k)

end Row

/-- Row `r` of an array with 1024 columns. -/
def row {B : Nat} (x : Mat B 1024) (r : Fin B) : Fin 1024 → EReal := fun c => x (ix2 r c)

/-- The layer's output for an array of `B` rows. -/
def outArr {B : Nat} (W1 : Mat 512 512) (b1 : Arr 512) (W2 : Mat 512 1024) (b2 : Arr 1024) (x : Mat B 1024) : Mat B 1024 :=
  fun i => outRow W1 b1 W2 b2 (row x ⟨(i 0).val, idx2_lt0 i⟩) ⟨(i 1).val, idx2_lt1 i⟩

/-- The layer's log-determinants for an array of `B` rows. -/
def ladArr {B : Nat} (W1 : Mat 512 512) (b1 : Arr 512) (W2 : Mat 512 1024) (b2 : Arr 1024) (x : Mat B 1024) : Arr B :=
  fun i => ladRow W1 b1 W2 b2 (row x ⟨(i 0).val, (i 0).isLt⟩)

theorem outArr_apply {B : Nat} (W1 : Mat 512 512) (b1 : Arr 512) (W2 : Mat 512 1024) (b2 : Arr 1024) (x : Mat B 1024)
    (r : Fin B) (c : Fin 1024) : outArr W1 b1 W2 b2 x (ix2 r c) = outRow W1 b1 W2 b2 (row x r) c := rfl

theorem ladArr_apply {B : Nat} (W1 : Mat 512 512) (b1 : Arr 512) (W2 : Mat 512 1024) (b2 : Arr 1024) (x : Mat B 1024)
    (r : Fin B) : ladArr W1 b1 W2 b2 x (ix1 r) = ladRow W1 b1 W2 b2 (row x r) := rfl

/-- The output at an entry depends only on that entry's row of the input and on its column. -/
theorem outArr_congr {B B' : Nat} (W1 : Mat 512 512) (b1 : Arr 512) (W2 : Mat 512 1024) (b2 : Arr 1024)
    (x : Mat B 1024) (x' : Mat B' 1024) (i : (⟨2, ![B, 1024]⟩ : Shape).Idx) (i' : (⟨2, ![B', 1024]⟩ : Shape).Idx)
    (hrow : row x ⟨(i 0).val, idx2_lt0 i⟩ = row x' ⟨(i' 0).val, idx2_lt0 i'⟩) (hcol : (i 1).val = (i' 1).val) :
    outArr W1 b1 W2 b2 x i = outArr W1 b1 W2 b2 x' i' := by
  unfold outArr
  rw [hrow]
  exact congrArg (outRow W1 b1 W2 b2 _) (Fin.ext hcol)

/-- The log-determinant at an entry depends only on that entry's row of the input. -/
theorem ladArr_congr {B B' : Nat} (W1 : Mat 512 512) (b1 : Arr 512) (W2 : Mat 512 1024) (b2 : Arr 1024)
    (x : Mat B 1024) (x' : Mat B' 1024) (i : (⟨1, ![B]⟩ : Shape).Idx) (i' : (⟨1, ![B']⟩ : Shape).Idx)
    (hrow : row x ⟨(i 0).val, (i 0).isLt⟩ = row x' ⟨(i' 0).val, (i' 0).isLt⟩) :
    ladArr W1 b1 W2 b2 x i = ladArr W1 b1 W2 b2 x' i' := by
  unfold ladArr
  rw [hrow]

/-- On an even column the output row is the input row. -/
theorem outRow_even (W1 : Mat 512 512) (b1 : Arr 512) (W2 : Mat 512 1024) (b2 : Arr 1024) (xr : Fin 1024 → EReal)
    (k : Fin 512) : outRow W1 b1 W2 b2 xr (evenCol k) = xr (evenCol k) := by
  unfold outRow
  rw [if_pos (by show (2 * k.val) % 2 = 0; omega)]

/-- On an odd column the output row is the coupled entry. -/
theorem outRow_odd (W1 : Mat 512 512) (b1 : Arr 512) (W2 : Mat 512 1024) (b2 : Arr 1024) (xr : Fin 1024 → EReal)
    (k : Fin 512) : outRow W1 b1 W2 b2 xr (oddCol k) = shifted W1 b1 W2 b2 xr k := by
  unfold outRow
  rw [if_neg (by show ¬ (2 * k.val + 1) % 2 = 0; omega)]
  refine congrArg (shifted W1 b1 W2 b2 xr) (Fin.ext ?_)
  show (2 * k.val + 1) / 2 = k.val
  omega

/-- Every column is an even or an odd one. -/
theorem col_cases (c : Fin 1024) : (∃ k : Fin 512, c = evenCol k) ∨ (∃ k : Fin 512, c = oddCol k) := by
  have hc := c.isLt
  by_cases h : c.val % 2 = 0
  · exact Or.inl ⟨⟨c.val / 2, by omega⟩, Fin.ext (by show c.val = 2 * (c.val / 2); omega)⟩
  · exact Or.inr ⟨⟨c.val / 2, by omega⟩, Fin.ext (by show c.val = 2 * (c.val / 2) + 1; omega)⟩

end Coupling

end
-- ==== Proof.RefValue.lean ====
/-
  The reference program's two results are the coupling layer of CouplingSpec, entry by entry.

  The reference selects the even-numbered and the odd-numbered columns of `x` with two gathers whose column lists it
  computes from an iota (`2k` and `2k + 1`, each passed through the "negative index wraps by 1024" select, which never
  fires), runs the network and the coupling on the two halves, and writes both halves back into an array of zeros
  with two column scatters over the same two lists. The even list and the odd list are disjoint, each is injective,
  and together they name every column: so each entry of the result receives exactly one update, and no zero survives.
-/
import proofs.«147005_j91319594647687_2_alg».proof.Proof.Gen.ReferenceIdeal.Read
import proofs.«147005_j91319594647687_2_alg».proof.Proof.LibScatterColumns
import proofs.«147005_j91319594647687_2_alg».proof.Proof.CouplingSpec
import Idealize.ShloMosaic.Lib.IdealHost

noncomputable section

namespace Coupling.Ref

open Cert.ReferenceIdeal Cert.ReferenceIdeal.Gen Cert.ReferenceIdeal.Read
open Idealize.ShloMosaic Idealize.ShloMosaic.ValueIdx ColumnIndexing
open scoped BigOperators

/-! ## The two column lists -/

/-- The reference's treatment of a possibly negative column number: add 1024 to a negative one. -/
def wrap (z : BitVec 32) : BitVec 32 := Scalar.select (IntOp.cmpi .slt z 0#32) (IntOp.addi z 1024#32) z
/-- Entry `k` of the even list before the wrap: `0 + 2 · k` on 32-bit words. -/
def evenWord (k : Fin 512) : BitVec 32 := IntOp.addi 0#32 (IntOp.muli 2#32 (BitVec.ofNat 32 k.val))
/-- Entry `k` of the odd list before the wrap: `1 + 2 · k` on 32-bit words. -/
def oddWord (k : Fin 512) : BitVec 32 := IntOp.addi 1#32 (IntOp.muli 2#32 (BitVec.ofNat 32 k.val))

/-- The even list's entry `k`, read signed, is `2k`: nothing wraps below 2³¹ and none is negative. -/
theorem wrap_even : ∀ k : Fin 512, (wrap (evenWord k)).toInt = ((2 * k.val : Nat) : Int) := by decide +kernel
/-- The odd list's entry `k`, read signed, is `2k + 1`. -/
theorem wrap_odd : ∀ k : Fin 512, (wrap (oddWord k)).toInt = ((2 * k.val + 1 : Nat) : Int) := by decide +kernel

theorem evenList (k : Fin 512) : (val_main_v15 (F := Ideal) (colIdx k)).toInt = ((2 * k.val : Nat) : Int) :=
  wrap_even k
theorem oddList (k : Fin 512) : (val_main_v22 (F := Ideal) (colIdx k)).toInt = ((2 * k.val + 1 : Nat) : Int) :=
  wrap_odd k
theorem evenList' (k : Fin 512) : (val_main_v55 (F := Ideal) (colIdx k)).toInt = ((2 * k.val : Nat) : Int) :=
  wrap_even k
theorem oddList' (k : Fin 512) : (val_main_v62 (F := Ideal) (colIdx k)).toInt = ((2 * k.val + 1 : Nat) : Int) :=
  wrap_odd k

/-! ## The two halves of a row -/

variable (x : Mat 32768 1024) (W1 : Mat 512 512) (b1 : Arr 512) (W2 : Mat 512 1024) (b2 : Arr 1024)

/-- The first gather is the identity half: column `k` of it is column `2k` of `x`. -/
theorem identityHalf (r : Fin 32768) (k : Fin 512) :
    val_main_v16 (F := Ideal) x (ix2 r k) = x (ix2 r (evenCol k)) := by
  unfold val_main_v16
  refine (gather_cols_apply (R := 32768) (N := 1024) (C := 512)
    Facts₀.gather_S32768x1024_S512x1_S32768x512_0_1_n_n_1_1_327681_wf (by decide) x (val_main_v15 (F := Ideal)) r k).trans ?_
  refine congrArg x (congrArg (ix2 r) (Fin.ext ?_))
  show min (val_main_v15 (F := Ideal) (colIdx k)).toInt.toNat (1024 - 1) = 2 * k.val
  rw [evenList]
  have := k.isLt
  omega

/-- The second gather is the transformed half: column `k` of it is column `2k + 1` of `x`. -/
theorem transformedHalf (r : Fin 32768) (k : Fin 512) :
    val_main_v23 (F := Ideal) x (ix2 r k) = x (ix2 r (oddCol k)) := by
  unfold val_main_v23
  refine (gather_cols_apply (R := 32768) (N := 1024) (C := 512)
    Facts₀.gather_S32768x1024_S512x1_S32768x512_0_1_n_n_1_1_327681_wf (by decide) x (val_main_v22 (F := Ideal)) r k).trans ?_
  refine congrArg x (congrArg (ix2 r) (Fin.ext ?_))
  show min (val_main_v22 (F := Ideal) (colIdx k)).toInt.toNat (1024 - 1) = 2 * k.val + 1
  rw [oddList]
  have := k.isLt
  omega

/-! ## The network and the coupling, stage by stage -/

theorem hiddenLayer (r : Fin 32768) (j : Fin 512) :
    val_main_v28 (F := Ideal) x W1 b1 (ix2 r j) = hidden W1 b1 (row x r) j := by
  rw [val_main_v28_apply, val_main_v27_apply, val_main_v24_apply, val_main_v26_apply, val_main_v25_apply,
    val_main_call0_v0_apply, val_main_call0_cst_apply]
  have e1 : ∀ k : Fin 512, lidx_main_v24 (ix2 r j) k = ix2 r k := fun k =>
    funext fun a => Fin.ext (by match a with | ⟨0, _⟩ => rfl | ⟨1, _⟩ => rfl)
  have e2 : ∀ k : Fin 512, ridx_main_v24 (ix2 r j) k = ix2 k j := fun k =>
    funext fun a => Fin.ext (by match a with | ⟨0, _⟩ => rfl | ⟨1, _⟩ => rfl)
  have e3 : idx_main_v25 (idx_main_v26 (ix2 r j)) = ix1 j :=
    funext fun a => Fin.ext (by match a with | ⟨0, _⟩ => rfl)
  simp only [e1, e2, e3, identityHalf]
  rfl

theorem paramsLayer (r : Fin 32768) (n : Fin 1024) :
    val_main_v32 (F := Ideal) x W1 b1 W2 b2 (ix2 r n) = params W1 b1 W2 b2 (row x r) n := by
  rw [val_main_v32_apply, val_main_v29_apply, val_main_v31_apply, val_main_v30_apply]
  have e1 : ∀ k : Fin 512, lidx_main_v29 (ix2 r n) k = ix2 r k := fun k =>
    funext fun a => Fin.ext (by match a with | ⟨0, _⟩ => rfl | ⟨1, _⟩ => rfl)
  have e2 : ∀ k : Fin 512, ridx_main_v29 (ix2 r n) k = ix2 k n := fun k =>
    funext fun a => Fin.ext (by match a with | ⟨0, _⟩ => rfl | ⟨1, _⟩ => rfl)
  have e3 : idx_main_v30 (idx_main_v31 (ix2 r n)) = ix1 n :=
    funext fun a => Fin.ext (by match a with | ⟨0, _⟩ => rfl)
  simp only [e1, e2, e3, hiddenLayer]
  rfl

/-- The reference spells the logistic function out as `1 / (1 + exp (−t))`, with the literal `1.0` twice: on the
    extended reals that is the logistic function itself. -/
theorem scaleLayer (r : Fin 32768) (k : Fin 512) :
    val_main_v44 (F := Ideal) x W1 b1 W2 b2 (ix2 r k) = scale W1 b1 W2 b2 (row x r) k := by
  rw [val_main_v44_apply, val_main_v42_apply, val_main_v41_apply, val_main_cst_8_apply, val_main_v40_apply,
    val_main_v39_apply, val_main_cst_7_apply, val_main_v38_apply, val_main_v37_apply, val_main_v36_apply,
    val_main_v33_apply, val_main_v35_apply, val_main_cst_apply, val_main_v43_apply, val_main_cst_9_apply]
  have e1 : idx_main_v33 (ix2 r k) = ix2 r (loCol k) :=
    funext fun a => Fin.ext (by match a with | ⟨0, _⟩ => rfl | ⟨1, _⟩ => rfl)
  rw [e1, paramsLayer]
  show Ideal.div (Ideal.ofBits .f32 0x3F800000#32)
      (Ideal.ofBits .f32 0x3F800000#32 + Ideal.exp (-(params W1 b1 W2 b2 (row x r) (loCol k) + two))) + scaleFloor = _
  rw [Ideal.ofBits_one_f32]
  rfl

theorem shiftedLayer (r : Fin 32768) (k : Fin 512) :
    val_main_v46 (F := Ideal) x W1 b1 W2 b2 (ix2 r k) = shifted W1 b1 W2 b2 (row x r) k := by
  rw [val_main_v46_apply, val_main_v45_apply, val_main_v34_apply]
  have e1 : idx_main_v34 (ix2 r k) = ix2 r (hiCol k) :=
    funext fun a => Fin.ext (by match a with | ⟨0, _⟩ => rfl | ⟨1, _⟩ => rfl)
  rw [e1, paramsLayer, scaleLayer, transformedHalf]
  rfl

/-! ## The two results -/

/-- The reference's second result is the layer's log-determinant: the host's row sum starts from the literal `0.0`. -/
theorem ladValue : val_main_v48 (F := Ideal) x W1 b1 W2 b2 = ladArr W1 b1 W2 b2 x := by
  funext i
  obtain ⟨r, rfl⟩ : ∃ r : Fin 32768, i = ix1 r := ⟨i 0, eq_ix1 i⟩
  rw [val_main_v48_apply, val_main_cst_10_apply]
  have e1 : ∀ k : Fin 512, idx_main_v48 (ix1 r) k = ix2 r k := fun k =>
    funext fun a => Fin.ext (by match a with | ⟨0, _⟩ => rfl | ⟨1, _⟩ => rfl)
  simp only [e1, val_main_v47_apply, scaleLayer]
  show Ideal.ofBits .f32 0x00000000#32 + ∑ k : Fin 512, Ideal.log (scale W1 b1 W2 b2 (row x r) k) = _
  rw [Ideal.ofBits_zero_f32, zero_add]
  rfl

/-- The reference's first result is the layer's output: an even column receives its one update from the first scatter
    (the identity half) and none from the second, an odd column its one update from the second (the coupled half). -/
theorem outValue : val_main_v63 (F := Ideal) x W1 b1 W2 b2 = outArr W1 b1 W2 b2 x := by
  funext i
  obtain ⟨r, c, rfl⟩ : ∃ (r : Fin 32768) (c : Fin 1024), i = ix2 r c := ⟨i 0, i 1, eq_ix2 i⟩
  rw [outArr_apply]
  unfold val_main_v63
  rcases col_cases c with ⟨k, rfl⟩ | ⟨k, rfl⟩
  · rw [outRow_even]
    refine (scatter_set_cols_miss (R := 32768) (N := 1024) (C := 512) Facts₀.scatter_S32768x1024_S512x1_S32768x512_0_1_1_1_wf
      _ (val_main_v62 (F := Ideal)) _ r (evenCol k) ?_).trans ?_
    · intro k'
      rw [oddList']
      show ((2 * k'.val + 1 : Nat) : Int) ≠ ((2 * k.val : Nat) : Int)
      omega
    · unfold val_main_v56
      refine (scatter_set_cols_hit (R := 32768) (N := 1024) (C := 512) Facts₀.scatter_S32768x1024_S512x1_S32768x512_0_1_1_1_wf
        _ (val_main_v55 (F := Ideal)) _ r (evenCol k) k ?_ ?_).trans ?_
      · rw [evenList']; rfl
      · intro k' hk'
        rw [evenList'] at hk'
        have hk'' : ((2 * k'.val : Nat) : Int) = ((2 * k.val : Nat) : Int) := hk'
        exact Fin.ext (by omega)
      · exact identityHalf x r k
  · rw [outRow_odd]
    refine (scatter_set_cols_hit (R := 32768) (N := 1024) (C := 512) Facts₀.scatter_S32768x1024_S512x1_S32768x512_0_1_1_1_wf
      _ (val_main_v62 (F := Ideal)) _ r (oddCol k) k ?_ ?_).trans ?_
    · rw [oddList']; rfl
    · intro k' hk'
      rw [oddList'] at hk'
      have hk'' : ((2 * k'.val + 1 : Nat) : Int) = ((2 * k.val + 1 : Nat) : Int) := hk'
      exact Fin.ext (by omega)
    · exact shiftedLayer x W1 b1 W2 b2 r k

end Coupling.Ref

end
-- ==== Proof.KernelBlock.lean ====
/-
  One grid point of the kernel computes the coupling layer of CouplingSpec on its block of 512 rows.

  The body loads a 512 × 1024 block of `x` and views it as 512 × 512 × 2: the last axis separates each row's even
  entries (the identity half) from its odd entries (the transformed half), because entry `(p, k, e)` of the view is entry
  `(p, 2k + e)` of the block. Two matrix products into zero accumulators are plain sums over the contracted index; the
  changes of float format on the way into them are the identity here. The last 512 × 512 × 2 value stacks the identity
  half and the coupled half on the last axis again and is viewed as 512 × 1024, which interleaves them. The row sums of
  `log scale` are the block's log-determinants.
-/
import proofs.«147005_j91319594647687_2_alg».proof.Proof.Gen.KernelIdeal.Skeleton
import proofs.«147005_j91319594647687_2_alg».proof.Proof.Gen.KernelIdeal
import proofs.«147005_j91319594647687_2_alg».proof.Proof.CouplingSpec
import Idealize.ShloMosaic.Lib.Pipeline.Value
import Idealize.ShloMosaic.Lib.ValueIdx
import Idealize.ShloMosaic.PureOps.Ideal.Laws

noncomputable section

namespace Coupling.Kern

open Cert.KernelIdeal Cert.KernelIdeal.Gen Idealize.ShloMosaic Idealize.ShloMosaic.ValueIdx
open scoped BigOperators

variable (v0 : FVec Ideal S512x1024 .f32) (v7 : FVec Ideal S512x512 .bf16) (v10 : FVec Ideal S512 .f32)
  (v17 : FVec Ideal S512x1024 .bf16) (v20 : FVec Ideal S1024 .f32)

/-! ## The block viewed as 512 × 512 × 2 -/

/-- Entry `(p, k, e)` of the view is entry `(p, 2k + e)` of the block: the two have one row-major position. -/
theorem deinterleave (p k : Fin 512) (e : Fin 2) :
    k0_pay1 (F := Ideal) v0 (ix3 p k e)
      = v0 (ix2 p ⟨2 * k.val + e.val, by have := k.isLt; have := e.isLt; omega⟩) := by
  unfold k0_pay1
  refine shapeCast_apply v0 _ _ _ ?_
  rw [Shape.rowMajor_val_two, Shape.rowMajor_val_three]
  show p.val * 1024 + (2 * k.val + e.val) = (p.val * 512 + k.val) * 2 + e.val
  omega

/-- The identity half of the block: its column `k` is the block's column `2k`. -/
theorem identityBlock (p k : Fin 512) : k0_pay2 (F := Ideal) v0 (ix2 p k) = v0 (ix2 p (evenCol k)) := by
  unfold k0_pay2
  refine (shapeCast_apply _ _ (ix2 p k) (ix3 p k ⟨0, Nat.one_pos⟩) ?_).trans ?_
  · rw [Shape.rowMajor_val_three, Shape.rowMajor_val_two]
    show (p.val * 512 + k.val) * 1 + 0 = p.val * 512 + k.val
    omega
  · refine (extractStridedSlice_apply _ _ _ (ix3 p k ⟨0, Nat.one_pos⟩) (ix3 p k ⟨0, by decide⟩) ?_).trans ?_
    · intro a
      match a with
      | ⟨0, _⟩ => show p.val = 0 + p.val; omega
      | ⟨1, _⟩ => show k.val = 0 + k.val; omega
      | ⟨2, _⟩ => show (0 : Nat) = 0 + 0; omega
    · exact deinterleave v0 p k ⟨0, by decide⟩

/-- The transformed half of the block, as the last payload slices it out: its column `k` is the block's column `2k + 1`. -/
theorem transformedBlock (p k : Fin 512) :
    shapeCast S512x512 (extractStridedSlice S512x512x1 ![0, 0, 1] (k0_pay1 (F := Ideal) v0)
      Facts₀.slices_S512x512x2_o0_0_1_S512x512x1) Facts₀.shapeCasts_S512x512x1_S512x512 (ix2 p k)
      = v0 (ix2 p (oddCol k)) := by
  refine (shapeCast_apply _ _ (ix2 p k) (ix3 p k ⟨0, Nat.one_pos⟩) ?_).trans ?_
  · rw [Shape.rowMajor_val_three, Shape.rowMajor_val_two]
    show (p.val * 512 + k.val) * 1 + 0 = p.val * 512 + k.val
    omega
  · refine (extractStridedSlice_apply _ _ _ (ix3 p k ⟨0, Nat.one_pos⟩) (ix3 p k ⟨1, by decide⟩) ?_).trans ?_
    · intro a
      match a with
      | ⟨0, _⟩ => show p.val = 0 + p.val; omega
      | ⟨1, _⟩ => show k.val = 0 + k.val; omega
      | ⟨2, _⟩ => show (1 : Nat) = 1 + 0; omega
    · exact deinterleave v0 p k ⟨1, by decide⟩

/-! ## The two matrix products and the two bias rows -/

theorem lhs1_row (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem rhs1_col (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The first product into a zero accumulator, entry `(p, j)`: the sum over `k` of left `(p, k)` times right `(k, j)`. -/
theorem product1_apply (l : FVec Ideal S512x512 .bf16) (rr : FVec Ideal S512x512 .bf16) (p j : Fin 512) :
    matmul dot_S512x512_S512x512_S512x512_1_0_0_1_n_n none l rr (constant (F := Ideal) S512x512 .f32 0x00000000#32) (ix2 p j)
      = ∑ k : Fin 512, l (ix2 p k) * rr (ix2 k j) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p j) ((contrEquiv1 dot_S512x512_S512x512_S512x512_1_0_0_1_n_n 512 rfl rfl).symm k) = ix2 p k :=
    funext fun a => Fin.ext (by
      match a with
      | ⟨0, _⟩ => exact lhs1_row _ _
      | ⟨1, _⟩ => exact (dot_S512x512_S512x512_S512x512_1_0_0_1_n_n.lhsIdx_val_of_single rfl _ _).trans hk)
  have er : dot_S512x512_S512x512_S512x512_1_0_0_1_n_n.rhsIdx (ix2 p j) ((contrEquiv1 dot_S512x512_S512x512_S512x512_1_0_0_1_n_n 512 rfl rfl).symm k) = ix2 k j :=
    funext fun a => Fin.ext (by
      match a with
      | ⟨0, _⟩ => exact (dot_S512x512_S512x512_S512x512_1_0_0_1_n_n.rhsIdx_val_of_single rfl _ _).trans hk
      | ⟨1, _⟩ => exact rhs1_col _ _)
  rw [el, er]

theorem lhs2_row (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem rhs2_col (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The second product into a zero accumulator, entry `(p, n)`. -/
theorem product2_apply (l : FVec Ideal S512x512 .bf16) (rr : FVec Ideal S512x1024 .bf16) (p : Fin 512) (n : Fin 1024) :
    matmul dot_S512x512_S512x1024_S512x1024_1_0_0_1_n_n none l rr (constant (F := Ideal) S512x1024 .f32 0x00000000#32) (ix2 p n)
      = ∑ k : Fin 512, l (ix2 p k) * rr (ix2 k n) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p n) ((contrEquiv1 dot_S512x512_S512x1024_S512x1024_1_0_0_1_n_n 512 rfl rfl).symm k) = ix2 p k :=
    funext fun a => Fin.ext (by
      match a with
      | ⟨0, _⟩ => exact lhs2_row _ _
      | ⟨1, _⟩ => exact (dot_S512x512_S512x1024_S512x1024_1_0_0_1_n_n.lhsIdx_val_of_single rfl _ _).trans hk)
  have er : dot_S512x512_S512x1024_S512x1024_1_0_0_1_n_n.rhsIdx (ix2 p n) ((contrEquiv1 dot_S512x512_S512x1024_S512x1024_1_0_0_1_n_n 512 rfl rfl).symm k) = ix2 k n :=
    funext fun a => Fin.ext (by
      match a with
      | ⟨0, _⟩ => exact (dot_S512x512_S512x1024_S512x1024_1_0_0_1_n_n.rhsIdx_val_of_single rfl _ _).trans hk
      | ⟨1, _⟩ => exact rhs2_col _ _)
  rw [el, er]

/-- The first bias, laid out as a row and repeated down the 512 rows: entry `(p, j)` is entry `j`. -/
theorem bias1_apply (p j : Fin 512) :
    broadcastTo S512x512 (shapeCast S1x512 v10 Facts₀.shapeCasts_S512_S1x512) Facts₀.broadcasts_S1x512_S512x512 (ix2 p j)
      = v10 (ix1 j) := by
  refine (broadcastTo_apply _ _ (ix2 p j) (ix2 ⟨0, Nat.one_pos⟩ j) ?_).trans ?_
  · intro a
    match a with
    | ⟨0, _⟩ => show (0 : Nat) = if (1 : Nat) = 1 then 0 else p.val; rw [if_pos rfl]
    | ⟨1, _⟩ => show j.val = if (512 : Nat) = 1 then 0 else j.val; rw [if_neg (by decide)]
  · refine shapeCast_apply v10 _ _ (ix1 j) ?_
    rw [Shape.rowMajor_val_one, Shape.rowMajor_val_two]
    show j.val = 0 * 512 + j.val
    omega

/-- The second bias likewise, over 1024 columns. -/
theorem bias2_apply (p : Fin 512) (n : Fin 1024) :
    broadcastTo S512x1024 (shapeCast S1x1024 v20 Facts₀.shapeCasts_S1024_S1x1024) Facts₀.broadcasts_S1x1024_S512x1024 (ix2 p n)
      = v20 (ix1 n) := by
  refine (broadcastTo_apply _ _ (ix2 p n) (ix2 ⟨0, Nat.one_pos⟩ n) ?_).trans ?_
  · intro a
    match a with
    | ⟨0, _⟩ => show (0 : Nat) = if (1 : Nat) = 1 then 0 else p.val; rw [if_pos rfl]
    | ⟨1, _⟩ => show n.val = if (1024 : Nat) = 1 then 0 else n.val; rw [if_neg (by decide)]
  · refine shapeCast_apply v20 _ _ (ix1 n) ?_
    rw [Shape.rowMajor_val_one, Shape.rowMajor_val_two]
    show n.val = 0 * 1024 + n.val
    omega

/-! ## The payloads -/

/-- The network's output on row `p` of the block. -/
theorem paramsBlock (p : Fin 512) (n : Fin 1024) :
    k0_pay3 (F := Ideal) v0 v7 v10 v17 v20 (ix2 p n) = params v7 v10 v17 v20 (row (B := 512) v0 p) n := by
  unfold k0_pay3
  rw [addf_apply, product2_apply, bias2_apply]
  simp only [truncf_apply, maximumf_apply, addf_apply, product1_apply, bias1_apply, broadcast_apply, shapeCast_self,
    identityBlock]
  rfl

/-- The scale on row `p` of the block: the first 512 columns of the network's output, plus two, through the
    logistic function, plus the floor. -/
theorem scaleBlock (p k : Fin 512) :
    k0_pay4 (F := Ideal) v0 v7 v10 v17 v20 (ix2 p k) = scale v7 v10 v17 v20 (row (B := 512) v0 p) k := by
  unfold k0_pay4
  show Ideal.logistic (extractStridedSlice S512x512 ![0, 0] (k0_pay3 (F := Ideal) v0 v7 v10 v17 v20)
      Facts₀.slices_S512x1024_o0_0_S512x512 (ix2 p k) + Ideal.ofBits .f32 0x40000000#32) + Ideal.ofBits .f32 0x3A83126F#32 = _
  rw [extractStridedSlice_apply _ _ _ (ix2 p k) (ix2 p (loCol k)) (fun a => by
    match a with
    | ⟨0, _⟩ => show p.val = 0 + p.val; omega
    | ⟨1, _⟩ => show k.val = 0 + k.val; omega), paramsBlock]
  rfl

/-- The log-determinant of row `p` of the block: the lane sum of `log scale` is a plain sum over the 512 lanes. -/
theorem ladBlock (p : Fin 512) :
    k0_pay5 (F := Ideal) v0 v7 v10 v17 v20 (ix1 p) = ladRow v7 v10 v17 v20 (row (B := 512) v0 p) := by
  unfold k0_pay5
  refine (Ideal.multiReduction_add_single (log (k0_pay4 (F := Ideal) v0 v7 v10 v17 v20)) 0x00000000#32
    Facts₀.reduces_S512x512_S512 (.inl rfl) rfl (ix1 p)).trans ?_
  unfold ladRow
  refine Finset.sum_congr rfl fun k _ => ?_
  have e : Facts₀.reduces_S512x512_S512.lift (ix1 p) k = ix2 p k :=
    funext fun a => Fin.ext (by match a with | ⟨0, _⟩ => rfl | ⟨1, _⟩ => rfl)
  rw [e]
  exact congrArg Ideal.log (scaleBlock v0 v7 v10 v17 v20 p k)

/-- The stored 512 × 1024 value on row `p`: even columns carry the block's own entries, odd columns the coupled
    entries. -/
theorem outBlock (p : Fin 512) (c : Fin 1024) :
    k0_pay6 (F := Ideal) v0 v7 v10 v17 v20 (ix2 p c) = outRow v7 v10 v17 v20 (row (B := 512) v0 p) c := by
  unfold k0_pay6
  rcases col_cases c with ⟨k, rfl⟩ | ⟨k, rfl⟩
  · rw [outRow_even]
    refine (shapeCast_apply _ _ (ix2 p (evenCol k)) (ix3 p k (⟨0, by decide⟩ : Fin 2)) ?_).trans ?_
    · rw [Shape.rowMajor_val_three, Shape.rowMajor_val_two]
      show (p.val * 512 + k.val) * 2 + 0 = p.val * 1024 + 2 * k.val
      omega
    · refine (concatenate_pair_apply_left (t := S512x512x2) (s₁ := S512x512x1) (s₂ := S512x512x1) _ _ _ _
        (ix3 p k (⟨0, by decide⟩ : Fin 2)) rfl (ix3 p k (⟨0, Nat.one_pos⟩ : Fin 1)) ?_).trans ?_
      · intro b
        match b with
        | ⟨0, _⟩ => rfl
        | ⟨1, _⟩ => rfl
        | ⟨2, _⟩ => rfl
      · refine (shapeCast_apply _ _ (ix3 p k ⟨0, Nat.one_pos⟩) (ix2 p k) ?_).trans (identityBlock v0 p k)
        rw [Shape.rowMajor_val_three, Shape.rowMajor_val_two]
        show p.val * 512 + k.val = (p.val * 512 + k.val) * 1 + 0
        omega
  · rw [outRow_odd]
    refine (shapeCast_apply _ _ (ix2 p (oddCol k)) (ix3 p k (⟨1, by decide⟩ : Fin 2)) ?_).trans ?_
    · rw [Shape.rowMajor_val_three, Shape.rowMajor_val_two]
      show (p.val * 512 + k.val) * 2 + 1 = p.val * 1024 + (2 * k.val + 1)
      omega
    · refine (concatenate_pair_apply_right (t := S512x512x2) (s₁ := S512x512x1) (s₂ := S512x512x1) _ _ _ _
        (ix3 p k (⟨1, by decide⟩ : Fin 2)) rfl rfl (ix3 p k (⟨0, Nat.one_pos⟩ : Fin 1)) ?_ ?_).trans ?_
      · intro b hb
        match b with
        | ⟨0, _⟩ => rfl
        | ⟨1, _⟩ => rfl
        | ⟨2, _⟩ => exact absurd rfl hb
      · rfl
      · refine (shapeCast_apply _ _ (ix3 p k ⟨0, Nat.one_pos⟩) (ix2 p k) ?_).trans ?_
        · rw [Shape.rowMajor_val_three, Shape.rowMajor_val_two]
          show p.val * 512 + k.val = (p.val * 512 + k.val) * 1 + 0
          omega
        · rw [addf_apply, mulf_apply, transformedBlock, scaleBlock]
          rw [extractStridedSlice_apply _ _ _ (ix2 p k) (ix2 p (hiCol k)) (fun a => by
            match a with
            | ⟨0, _⟩ => show p.val = 0 + p.val; omega
            | ⟨1, _⟩ => show 512 + k.val = 512 + k.val; omega), paramsBlock]
          rfl

end Coupling.Kern

end
-- ==== Proof.KernelArray.lean ====
/-
  From blocks to arrays: after the kernel's run each output array is the coupling layer of the whole input.

  The grid has 64 points. Point `t` reads rows `512 t … 512 t + 511` of `x` (all 1024 columns) and the whole of the two
  weight matrices and the two biases — the weights as the host's format change left them, which on the extended reals
  is the matrices themselves — and writes rows `512 t … 512 t + 511` of the output and entries `512 t … 512 t + 511`
  of the log-determinant. A block's rows are rows of the array, so what point `t` writes is block `t` of the layer of
  the whole array; the 64 blocks cover the 32768 rows, so the arrays end as the layer of the whole array.
-/
import proofs.«147005_j91319594647687_2_alg».proof.Proof.Gen.KernelIdeal.Value
import proofs.«147005_j91319594647687_2_alg».proof.Proof.KernelBlock
import Idealize.ShloMosaic.Lib.Pipeline.Value
import Idealize.ShloMosaic.Lib.StableHlo.Run

set_option maxRecDepth 16384

noncomputable section

namespace Coupling.Kern

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## The payloads as whole-block functions -/

theorem payOut_eq (v0 : FVec Ideal S512x1024 .f32) (v7 : FVec Ideal S512x512 .bf16) (v10 : FVec Ideal S512 .f32)
    (v17 : FVec Ideal S512x1024 .bf16) (v20 : FVec Ideal S1024 .f32) :
    k0_pay6 (F := Ideal) v0 v7 v10 v17 v20 = outArr (B := 512) v7 v10 v17 v20 v0 := by
  funext j
  obtain ⟨p, q, rfl⟩ : ∃ (p : Fin 512) (q : Fin 1024), j = ix2 p q := ⟨j 0, j 1, eq_ix2 j⟩
  exact outBlock v0 v7 v10 v17 v20 p q

theorem payLad_eq (v0 : FVec Ideal S512x1024 .f32) (v7 : FVec Ideal S512x512 .bf16) (v10 : FVec Ideal S512 .f32)
    (v17 : FVec Ideal S512x1024 .bf16) (v20 : FVec Ideal S1024 .f32) :
    k0_pay5 (F := Ideal) v0 v7 v10 v17 v20 = ladArr (B := 512) v7 v10 v17 v20 v0 := by
  funext j
  obtain ⟨p, rfl⟩ : ∃ p : Fin 512, j = ix1 p := ⟨j 0, eq_ix1 j⟩
  exact ladBlock v0 v7 v10 v17 v20 p

variable (m : (ℓ : Loc nD τ sig) → Buf (Elt Ideal) ℓ) (ρ : Dev nD → PrngReg)

/-! ## The argument arrays on a core -/

abbrev argX (c : Dev nD) : Mat 32768 1024 := m ((c : Thread nD τ).loc main_arg0)
abbrev argW1 (c : Dev nD) : Mat 512 512 := m ((c : Thread nD τ).loc main_arg1)
abbrev argB1 (c : Dev nD) : Arr 512 := m ((c : Thread nD τ).loc main_arg2)
abbrev argW2 (c : Dev nD) : Mat 512 1024 := m ((c : Thread nD τ).loc main_arg3)
abbrev argB2 (c : Dev nD) : Arr 1024 := m ((c : Thread nD τ).loc main_arg4)

/-- The layer's output of the arguments on core `c`. -/
abbrev outOf (c : Dev nD) : Mat 32768 1024 := outArr (argW1 m c) (argB1 m c) (argW2 m c) (argB2 m c) (argX m c)
/-- The layer's log-determinants of the arguments on core `c`. -/
abbrev ladOf (c : Dev nD) : Arr 32768 := ladArr (argW1 m c) (argB1 m c) (argW2 m c) (argB2 m c) (argX m c)

/-! ## Where each window's block sits -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the 64 grid points: the windows on `x`, the output and the log-determinant sit at block
    `t` of their row axis and block 0 of their column axis; the weights' and biases' windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 1) = t.val :=
  (by decide +kernel : ∀ t : Fin grid0.N, _)

/-- The host's change of float format before the region leaves the first weight matrix as it is. -/
theorem hostW1 (c : Dev nD) : (V m c main_v0 : S512x512.Idx → EReal) = argW1 m c := by
  dsimp only [Gen.V, Gen.hostOps0]
  after_results
  rfl

/-- … and the second. -/
theorem hostW2 (c : Dev nD) : (V m c main_v1 : S512x1024.Idx → EReal) = argW2 m c := by
  dsimp only [Gen.V, Gen.hostOps0]
  after_results
  rfl

/-- The first weight window's block at any point is the whole first weight matrix. -/
theorem blockW1 (c : Dev nD) (t : Fin cfg0.N) : iblk m c 1 t = argW1 m c := by
  obtain ⟨-, -, e0, e1, -⟩ := idx_facts t
  funext y
  show V m c main_v0 (((cfg0.win 1).blk t).view.emb y) = _
  rw [hostW1]
  refine congrArg (argW1 m c) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The first bias window's block at any point is the whole first bias. -/
theorem blockB1 (c : Dev nD) (t : Fin cfg0.N) : iblk m c 2 t = argB1 m c := by
  obtain ⟨-, -, -, -, e0, -⟩ := idx_facts t
  funext y
  show V m c main_arg2 (((cfg0.win 2).blk t).view.emb y) = _
  rw [V_main_arg2]
  refine congrArg (argB1 m c) (funext fun a => Fin.ext ?_)
  match a with
  | ⟨0, _⟩ => show win0_2.index t (0 : Fin 1) * 512 + 1 * (y 0).val = (y 0).val; omega

/-- The second weight window's block at any point is the whole second weight matrix. -/
theorem blockW2 (c : Dev nD) (t : Fin cfg0.N) : iblk m c 3 t = argW2 m c := by
  obtain ⟨-, -, -, -, -, e0, e1, -⟩ := idx_facts t
  funext y
  show V m c main_v1 (((cfg0.win 3).blk t).view.emb y) = _
  rw [hostW2]
  refine congrArg (argW2 m c) (funext fun a => Fin.ext ?_)
  match a with
  | ⟨0, _⟩ => show win0_3.index t (0 : Fin 2) * 512 + 1 * (y 0).val = (y 0).val; omega
  | ⟨1, _⟩ => show win0_3.index t (1 : Fin 2) * 1024 + 1 * (y 1).val = (y 1).val; omega

/-- The second bias window's block at any point is the whole second bias. -/
theorem blockB2 (c : Dev nD) (t : Fin cfg0.N) : iblk m c 4 t = argB2 m c := by
  obtain ⟨-, -, -, -, -, -, -, e0, -⟩ := idx_facts t
  funext y
  show V m c main_arg4 (((cfg0.win 4).blk t).view.emb y) = _
  rw [V_main_arg4]
  refine congrArg (argB2 m c) (funext fun a => Fin.ext ?_)
  match a with
  | ⟨0, _⟩ => show win0_4.index t (0 : Fin 1) * 1024 + 1 * (y 0).val = (y 0).val; omega

/-- Row `p` of the block of `x` at point `t` is row `512 t + p` of `x`. -/
theorem blockX_row (c : Dev nD) (t : Fin cfg0.N) (p : Fin 512) :
    row (B := 512) (iblk m c 0 t) p
      = row (argX m c) ⟨t.val * 512 + p.val, by
          have hN : grid0.N = 64 := N_0
          have ht : t.val < grid0.N := t.isLt
          have := p.isLt
          omega⟩ := by
  obtain ⟨e0, e1, -⟩ := idx_facts t
  funext q
  show V m c main_arg0 (((cfg0.win 0).blk t).view.emb (ix2 p q)) = argX m c (ix2 _ q)
  rw [V_main_arg0]
  refine congrArg (argX m c) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * q.val = q.val; omega

/-! ## What a point writes back -/

/-- Point `t` writes block `t` of the layer's output of the whole arguments. -/
theorem flushedOut (c : Dev nD) (t : Fin cfg0.N) :
    (dats m 0 c).flushed 5 t = ((cfg0.win 5).blk t).view.read (Elt Ideal) (outOf m c) := by
  rw [Cert.KernelIdeal.Value.flushed5]
  unfold out0_5
  rw [View.canon_unit_zero hz2]
  simp only [View.ld_unit_zero (S := S512x1024) hz2, View.ld_unit_zero (S := S512x512) hz2,
    View.ld_unit_zero (S := S512) hz1, View.ld_unit_zero (S := S1024) hz1]
  rw [payOut_eq (iblk m c 0 t) (iblk m c 1 t) (iblk m c 2 t) (iblk m c 3 t) (iblk m c 4 t),
    blockW1, blockB1, blockW2, blockB2]
  obtain ⟨-, -, -, -, -, -, -, -, e0, e1, -⟩ := idx_facts t
  funext j
  show outArr (B := 512) (argW1 m c) (argB1 m c) (argW2 m c) (argB2 m c) (iblk m c 0 t) j
    = outArr (B := 32768) (argW1 m c) (argB1 m c) (argW2 m c) (argB2 m c) (argX m c) (((cfg0.win 5).blk t).view.emb j)
  refine outArr_congr _ _ _ _ _ _ j _ ((blockX_row m c t ⟨(j 0).val, idx2_lt0 j⟩).trans
    (congrArg (row (argX m c)) (Fin.ext ?_))) ?_
  · show t.val * 512 + (j 0).val = win0_5.index t (0 : Fin 2) * 512 + 1 * (j 0).val
    omega
  · show (j 1).val = win0_5.index t (1 : Fin 2) * 1024 + 1 * (j 1).val
    omega

/-- Point `t` writes block `t` of the layer's log-determinants of the whole arguments. -/
theorem flushedLad (c : Dev nD) (t : Fin cfg0.N) :
    (dats m 0 c).flushed 6 t = ((cfg0.win 6).blk t).view.read (Elt Ideal) (ladOf m c) := by
  rw [Cert.KernelIdeal.Value.flushed6]
  unfold out0_6
  rw [View.canon_unit_zero hz1]
  simp only [View.ld_unit_zero (S := S512x1024) hz2, View.ld_unit_zero (S := S512x512) hz2,
    View.ld_unit_zero (S := S512) hz1, View.ld_unit_zero (S := S1024) hz1]
  rw [payLad_eq (iblk m c 0 t) (iblk m c 1 t) (iblk m c 2 t) (iblk m c 3 t) (iblk m c 4 t),
    blockW1, blockB1, blockW2, blockB2]
  obtain ⟨-, -, -, -, -, -, -, -, -, -, e0⟩ := idx_facts t
  funext j
  show ladArr (B := 512) (argW1 m c) (argB1 m c) (argW2 m c) (argB2 m c) (iblk m c 0 t) j
    = ladArr (B := 32768) (argW1 m c) (argB1 m c) (argW2 m c) (argB2 m c) (argX m c) (((cfg0.win 6).blk t).view.emb j)
  refine ladArr_congr _ _ _ _ _ _ j _ ((blockX_row m c t ⟨(j 0).val, (j 0).isLt⟩).trans
    (congrArg (row (argX m c)) (Fin.ext ?_)))
  show t.val * 512 + (j 0).val = win0_6.index t (0 : Fin 1) * 512 + 1 * (j 0).val
  omega

/-! ## The blocks cover the arrays -/

theorem mem_blkOut (t : Fin cfg0.N) (i : S32768x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v2_0).slice (win0_5.rect t)).set ↔ _
  rw [View.set_slice_whole, Rect.mem_set_unit]
  exact Iff.rfl

theorem mem_blkLad (t : Fin cfg0.N) (i : S32768.Idx) :
    i ∈ ((cfg0.win 6).blk t).view.set ↔ ∀ a : Fin 1, win0_6.index t a * S512.size a ≤ (i a).val
      ∧ (i a).val < win0_6.index t a * S512.size a + S512.size a := by
  show i ∈ ((View.whole main_v2_1).slice (win0_6.rect t)).set ↔ _
  rw [View.set_slice_whole, Rect.mem_set_unit]
  exact Iff.rfl

/-- Row `r` of the output lies in the block of point `r / 512`. -/
theorem coverOut (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  have hN : grid0.N = 64 := N_0
  have hlt : (i 0).val / 512 < grid0.N := by rw [hN]; omega
  obtain ⟨-, -, -, -, -, -, -, -, e0, e1, -⟩ := idx_facts ⟨(i 0).val / 512, hlt⟩
  have e0' : win0_5.index ⟨(i 0).val / 512, hlt⟩ (0 : Fin 2) = (i 0).val / 512 := e0
  refine ⟨⟨(i 0).val / 512, hlt⟩, flush0_5 _, ?_⟩
  rw [mem_blkOut]
  intro a
  match a with
  | ⟨0, _⟩ =>
    show win0_5.index ⟨(i 0).val / 512, hlt⟩ (0 : Fin 2) * 512 ≤ (i 0).val
      ∧ (i 0).val < win0_5.index ⟨(i 0).val / 512, hlt⟩ (0 : Fin 2) * 512 + 512
    omega
  | ⟨1, _⟩ =>
    show win0_5.index ⟨(i 0).val / 512, hlt⟩ (1 : Fin 2) * 1024 ≤ (i 1).val
      ∧ (i 1).val < win0_5.index ⟨(i 0).val / 512, hlt⟩ (1 : Fin 2) * 1024 + 1024
    omega

/-- Entry `r` of the log-determinant lies in the block of point `r / 512`. -/
theorem coverLad (i : S32768.Idx) :
    ∃ t : Fin cfg0.N, (cfg0.win 6).flush t = true ∧ i ∈ ((cfg0.win 6).blk t).view.set := by
  have hi0 : (i 0).val < 32768 := (i 0).isLt
  have hN : grid0.N = 64 := N_0
  have hlt : (i 0).val / 512 < grid0.N := by rw [hN]; omega
  obtain ⟨-, -, -, -, -, -, -, -, -, -, e0⟩ := idx_facts ⟨(i 0).val / 512, hlt⟩
  have e0' : win0_6.index ⟨(i 0).val / 512, hlt⟩ (0 : Fin 1) = (i 0).val / 512 := e0
  refine ⟨⟨(i 0).val / 512, hlt⟩, flush0_6 _, ?_⟩
  rw [mem_blkLad]
  intro a
  match a with
  | ⟨0, _⟩ =>
    show win0_6.index ⟨(i 0).val / 512, hlt⟩ (0 : Fin 1) * 512 ≤ (i 0).val
      ∧ (i 0).val < win0_6.index ⟨(i 0).val / 512, hlt⟩ (0 : Fin 1) * 512 + 512
    omega

/-! ## The arrays after the run, and the run -/

theorem finalOut (c : Dev nD) : (dats m 0 c).arrAt 5 cfg0.N = outOf m c :=
  (dats m 0 c).arrAt_eq_of_cover 5 (outOf m c) (fun t _ => flushedOut m c t) coverOut

theorem finalLad (c : Dev nD) : (dats m 0 c).arrAt 6 cfg0.N = ladOf m c :=
  (dats m 0 c).arrAt_eq_of_cover 6 (ladOf m c) (fun t _ => flushedLad m c t) coverLad

/-- The kernel's run: both result arrays at the layer of the arguments, the arguments unchanged. -/
theorem run : θ_run defs (onTc (τ := τ) (main (F := Ideal))) ⟨m, fun _ => 0, ρ⟩ fun r => ∀ c : Dev nD,
      r.2.mem ((c : Thread nD τ).loc main_v2_0) = outOf m c
      ∧ r.2.mem ((c : Thread nD τ).loc main_v2_1) = ladOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (finalOut m c), (h c).2.1.trans (finalLad m c), (h c).2.2⟩)
    (Cert.KernelIdeal.Value.run_blocks m ρ)

end Coupling.Kern

end
-- ==== Proof.lean ====
/-
  The certificate of an affine coupling layer with an alternating mask: a Pallas kernel against its jnp reference.

  Both programs take `x` (32768 × 1024), two weight matrices and two biases. Each row of `x` is split into its
  even-numbered entries, which pass through unchanged, and its odd-numbered entries, which are multiplied by a scale and
  shifted; scale and shift come from a two-layer network applied to the even-numbered entries, the scale through the
  logistic function plus a small floor. The second result is the row sum of the logarithms of the scales.

  The kernel works on 64 blocks of 512 rows; it separates and re-interleaves the two halves by viewing a block as
  512 × 512 × 2, rounds the matrix products' operands to a shorter float format, and calls the logistic function by name.
  The reference selects the halves with column gathers, writes them back with column scatters into zeros, and spells the
  logistic function as `1 / (1 + exp (−t))`. On the extended reals the roundings are the identity, the two spellings of
  the logistic function are one function, sums do not depend on their grouping, and each output entry receives exactly
  one scattered value: the two programs compute one function of the arguments, `Coupling.outArr` and `Coupling.ladArr`
  (CouplingSpec). No input needs to be finite for this.

  The kernel's idealization rewrote nothing, so `preserves` is `True`. The three frames are the generated ones; the
  reference's is its generated run with the results dropped.
-/
import proofs.«147005_j91319594647687_2_alg».proof.Defs
import proofs.«147005_j91319594647687_2_alg».proof.Proof.Gen.Kernel
import proofs.«147005_j91319594647687_2_alg».proof.Proof.Gen.Kernel.Frame
import proofs.«147005_j91319594647687_2_alg».proof.Proof.Gen.KernelIdeal
import proofs.«147005_j91319594647687_2_alg».proof.Proof.Gen.KernelIdeal.Frame
import proofs.«147005_j91319594647687_2_alg».proof.Proof.Gen.KernelIdeal.Value
import proofs.«147005_j91319594647687_2_alg».proof.Proof.Gen.ReferenceIdeal
import proofs.«147005_j91319594647687_2_alg».proof.Proof.Gen.ReferenceIdeal.Run
import proofs.«147005_j91319594647687_2_alg».proof.Proof.Gen.ReferenceIdeal.Read
import proofs.«147005_j91319594647687_2_alg».proof.Proof.Gen.Pre_finite_inputs
import proofs.«147005_j91319594647687_2_alg».proof.Proof.RefValue
import proofs.«147005_j91319594647687_2_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what the two results hold forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the five arguments both programs end with the layer's output and log-determinants of
    those arguments. -/
theorem algebraic : Cert.algebraic_KernelIdeal_ReferenceIdeal := by
  intro m ρ m' ρ' _ hagree
  refine ⟨fun c => Coupling.Kern.outOf m c, fun c => Coupling.Kern.ladOf m c, Coupling.Kern.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v63_eq, Coupling.Ref.outValue, (hagree c).1, (hagree c).2.1,
      (hagree c).2.2.1, (hagree c).2.2.2.1, (hagree c).2.2.2.2]
  · refine (Cert.ReferenceIdeal.Read.val_main_v48_eq (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))).trans ?_
    rw [Coupling.Ref.ladValue, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
